-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S16384x4096 .f32) (main_arg1 : FVec F S4096x4096 .f32) (main_arg2 : FVec F S4096 .f32) (main_arg3 : FVec F S4096x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩

abbrev nBuf : Space → Nat
  | .hbm => 9
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S4096x4096, .bf16⟩
  | .hbm, ⟨6, _⟩ => ⟨S16384x4096, .bf16⟩
  | .hbm, ⟨7, _⟩ => ⟨S1x4096, .f32⟩
  | .hbm, ⟨8, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S16384x4096.size a
  hwx0_0 : ∀ i : grid0.Coords, EltTy.bits .bf16 = 32 ∨ (Rect.block (s := S16384x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x4096.size a
  hwx0_3 : ∀ i : grid0.Coords, EltTy.bits .f32 = 32 ∨ (Rect.block (s := S16384x4096) S1024x512.size (cc0_transform_3 i) (hinb0_3 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v2) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S16384x4096, .f32⟩
  | .hbm, ⟨6, _⟩ => ⟨S1x4096, .f32⟩
  | .hbm, ⟨7, _⟩ => ⟨S16384x4096, .f32⟩
  | .hbm, ⟨8, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  dot_S16384x4096_S4096x4096_S16384x4096_1_1_0_0_n_n_wf : DotDims.WF S16384x4096 S4096x4096 S16384x4096 [1] [1] [0] [0] [] []

variable [Facts₀]

def dot_S16384x4096_S4096x4096_S16384x4096_1_1_0_0_n_n : DotDims S16384x4096 S4096x4096 S16384x4096 where
  lhsContracting := [1]
  rhsContracting := [1]
  lhsNonContracting := [0]
  rhsNonContracting := [0]
  lhsBatch := []
  rhsBatch := []
  wf := dot_S16384x4096_S4096x4096_S16384x4096_1_1_0_0_n_n_wf

class Facts : Prop extends Facts₀ where

variable [Facts]
-- ==== Proof.BlockProduct.lean ====
/-
  What the kernel's body computes from the blocks it loads, read at an index.

  At a grid point the body holds 1024 rows of the input, 512 rows of the masked weight and the 512
  bias entries of those rows' columns. It contracts the two row blocks along their shared second axis
  into a zero accumulator and adds the bias row broadcast down the 1024 rows. So its result at `(p, q)`
  is the sum over `k` of the input block's `(p, k)` entry times the weight block's `(q, k)` entry, plus
  the bias block's entry `q`.
-/
import proofs.«142754_j59837484367883_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen
open Idealize.ShloMosaic Idealize.ShloMosaic.ValueIdx

/-- The product's left operand index keeps the output's row on its free axis … -/
theorem left_row (j : S1024x512.Idx) (κ : dot_S1024x4096_S512x4096_S1024x512_1_1_0_0_n_n.contr.Idx) :
    (dot_S1024x4096_S512x4096_S1024x512_1_1_0_0_n_n.lhsIdx j κ 0).val = (j 0).val := by
  unfold DotDims.lhsIdx
  rw [dif_neg (show ¬(0 : Fin S1024x4096.rank) ∈ dot_S1024x4096_S512x4096_S1024x512_1_1_0_0_n_n.lhsBatch by decide),
    dif_pos (show (0 : Fin S1024x4096.rank) ∈ dot_S1024x4096_S512x4096_S1024x512_1_1_0_0_n_n.lhsNonContracting by decide)]
  rfl

/-- … and runs over the contraction on its second axis. -/
theorem left_col (j : S1024x512.Idx) (κ : dot_S1024x4096_S512x4096_S1024x512_1_1_0_0_n_n.contr.Idx) :
    (dot_S1024x4096_S512x4096_S1024x512_1_1_0_0_n_n.lhsIdx j κ 1).val = (κ ⟨0, by decide⟩).val :=
  dot_S1024x4096_S512x4096_S1024x512_1_1_0_0_n_n.lhsIdx_val_of_single rfl j κ

/-- The right operand index keeps the output's COLUMN on its free axis (the weight block is used transposed) … -/
theorem right_row (j : S1024x512.Idx) (κ : dot_S1024x4096_S512x4096_S1024x512_1_1_0_0_n_n.contr.Idx) :
    (dot_S1024x4096_S512x4096_S1024x512_1_1_0_0_n_n.rhsIdx j κ 0).val = (j 1).val := by
  unfold DotDims.rhsIdx
  rw [dif_neg (show ¬(0 : Fin S512x4096.rank) ∈ dot_S1024x4096_S512x4096_S1024x512_1_1_0_0_n_n.rhsBatch by decide),
    dif_pos (show (0 : Fin S512x4096.rank) ∈ dot_S1024x4096_S512x4096_S1024x512_1_1_0_0_n_n.rhsNonContracting by decide)]
  rfl

/-- … and runs over the contraction on its second axis too. -/
theorem right_col (j : S1024x512.Idx) (κ : dot_S1024x4096_S512x4096_S1024x512_1_1_0_0_n_n.contr.Idx) :
    (dot_S1024x4096_S512x4096_S1024x512_1_1_0_0_n_n.rhsIdx j κ 1).val = (κ ⟨0, by decide⟩).val :=
  dot_S1024x4096_S512x4096_S1024x512_1_1_0_0_n_n.rhsIdx_val_of_single rfl j κ

/-- The block product into a zero accumulator, at `(p, q)`: row `p` of the left block against row `q` of the
    right block, summed along the 4096 shared columns. -/
theorem product_at (l : FVec Ideal S1024x4096 .bf16) (r : FVec Ideal S512x4096 .bf16) (p : Fin 1024) (q : Fin 512) :
    matmul (F := Ideal) dot_S1024x4096_S512x4096_S1024x512_1_1_0_0_n_n none l r (constant S1024x512 .f32 0x00000000#32) (ix2 p q)
      = ∑ k : Fin 4096, l (ix2 p k) * r (ix2 q k) := by
  refine (Ideal.matmul_constant_zero_apply dot_S1024x4096_S512x4096_S1024x512_1_1_0_0_n_n none l r (ix2 p q)).trans ?_
  rw [← Equiv.sum_comp (contrEquiv1 dot_S1024x4096_S512x4096_S1024x512_1_1_0_0_n_n 4096 rfl rfl).symm]
  refine Finset.sum_congr rfl fun k _ => ?_
  have hk := contrEquiv1_symm_val dot_S1024x4096_S512x4096_S1024x512_1_1_0_0_n_n 4096 rfl rfl k
  have el : dot_S1024x4096_S512x4096_S1024x512_1_1_0_0_n_n.lhsIdx (ix2 p q)
      ((contrEquiv1 dot_S1024x4096_S512x4096_S1024x512_1_1_0_0_n_n 4096 rfl rfl).symm k) = ix2 p k :=
    funext fun a => Fin.ext (by
      match a with
      | ⟨0, _⟩ => exact left_row _ _
      | ⟨1, _⟩ => exact (left_col _ _).trans hk)
  have er : dot_S1024x4096_S512x4096_S1024x512_1_1_0_0_n_n.rhsIdx (ix2 p q)
      ((contrEquiv1 dot_S1024x4096_S512x4096_S1024x512_1_1_0_0_n_n 4096 rfl rfl).symm k) = ix2 q k :=
    funext fun a => Fin.ext (by
      match a with
      | ⟨0, _⟩ => exact right_row _ _
      | ⟨1, _⟩ => exact (right_col _ _).trans hk)
  rw [el, er]

/-- The bias row broadcast down the block's rows is read at its column, whatever the row. -/
theorem bias_at (v : FVec Ideal S1x512 .f32) (h : S1x512.Broadcasts S1024x512) (p : Fin 1024) (q : Fin 512) :
    broadcastTo S1024x512 v h (ix2 p q) = v (ix2 (0 : Fin 1) q) :=
  broadcastTo_1b_ab_apply v h p q

/-- THE BODY'S RESULT at `(p, q)`, from the three loaded blocks. -/
theorem body_at (x0 : Vec Ideal S1024x4096 .bf16) (x1 : Vec Ideal S512x4096 .bf16) (x2 : Vec Ideal S1x512 .f32)
    (p : Fin 1024) (q : Fin 512) :
    k0_pay1 (F := Ideal) x0 x1 x2 (ix2 p q) = (∑ k : Fin 4096, x0 (ix2 p k) * x1 (ix2 q k)) + x2 (ix2 (0 : Fin 1) q) := by
  unfold k0_pay1
  show matmul (F := Ideal) dot_S1024x4096_S512x4096_S1024x512_1_1_0_0_n_n none (shapeCast S1024x4096 x0 _) (shapeCast S512x4096 x1 _)
      (constant S1024x512 .f32 0x00000000#32) (ix2 p q) + broadcastTo S1024x512 (shapeCast S1x512 x2 _) _ (ix2 p q) = _
  rw [shapeCast_self, shapeCast_self, shapeCast_self, product_at, bias_at]

end Cert.KernelIdeal.Body

end
-- ==== Proof.MaskedLinear.lean ====
/-
  The function both programs compute, on the extended reals: a linear layer whose weight matrix is
  thinned by a mask before use,

      y[t, o] = Σ_k x[t, k] · (w[o, k] · mask[o, k]) + bias[o]      (t < 16384, o < 4096, k < 4096).

  Row `o` of the masked weight is contracted against row `t` of the input along their shared
  axis `k`, and the bias is added once per output column. Stated over literal shapes and with
  every index built from its coordinates, so that each side can be read against it index by index.
-/
import Idealize.ShloMosaic.PureOps.Ideal
import Idealize.ShloMosaic.Lib.ValueIdx

noncomputable section

namespace Cert.MaskedLinear

open Idealize.ShloMosaic Idealize.ShloMosaic.ValueIdx

/-- One entry of the layer, from the output's row `t` and column `o`: the sum over the contracted axis of the
    input's row `t` against the masked weight's row `o`, plus the bias of column `o`. -/
def entry (x : FVec Ideal ⟨2, ![16384, 4096]⟩ .f32) (w mk : FVec Ideal ⟨2, ![4096, 4096]⟩ .f32)
    (b : FVec Ideal ⟨1, ![4096]⟩ .f32) (t : Fin 16384) (o : Fin 4096) : EReal :=
  (∑ k : Fin 4096, x (ix2 t k) * (w (ix2 o k) * mk (ix2 o k))) + b (ix1 o)

/-- The masked linear layer as one array: at each index, the entry of that index's row and column. -/
def maskedLinear (x : FVec Ideal ⟨2, ![16384, 4096]⟩ .f32) (w mk : FVec Ideal ⟨2, ![4096, 4096]⟩ .f32)
    (b : FVec Ideal ⟨1, ![4096]⟩ .f32) : FVec Ideal ⟨2, ![16384, 4096]⟩ .f32 :=
  fun i => entry x w mk b (i 0) (i 1)

end Cert.MaskedLinear

end
-- ==== Proof.BlockOfLayer.lean ====
/-
  A block of the masked linear layer is what the body computes from the matching blocks of the arguments.

  Fix a block row `R` (1024 output rows) and a block column `C` (512 output columns). If the first loaded
  block is rows `1024·R …` of the input, the second is rows `512·C …` of the elementwise product of weight and
  mask, and the third is entries `512·C …` of the bias, then the body's result at `(p, q)` is the layer's entry
  at row `1024·R + p` and column `512·C + q`. Nothing is rearranged: the two sums run over the same `k` in the
  same order, term by term equal.
-/
import proofs.«142754_j59837484367883_2_alg».proof.Proof.BlockProduct
import proofs.«142754_j59837484367883_2_alg».proof.Proof.MaskedLinear

noncomputable section

namespace Cert.KernelIdeal.Body

open Cert.KernelIdeal Cert.KernelIdeal.Gen Cert.MaskedLinear
open Idealize.ShloMosaic Idealize.ShloMosaic.ValueIdx

/-- The body's result on blocks cut from the arguments, at `(p, q)`, is the layer's entry at the array index `i`
    lying `p` rows into block row `R` and `q` columns into block column `C`. -/
theorem body_eq_layer (X : FVec Ideal S16384x4096 .f32) (W MK : FVec Ideal S4096x4096 .f32) (B : FVec Ideal S4096 .f32)
    (x0 : Vec Ideal S1024x4096 .bf16) (x1 : Vec Ideal S512x4096 .bf16) (x2 : Vec Ideal S1x512 .f32) (R C : Nat)
    (hx : ∀ (p : Fin 1024) (k : Fin 4096) (i : S16384x4096.Idx), (i 0).val = R * 1024 + p.val → (i 1).val = k.val →
      x0 (ix2 p k) = X i)
    (hw : ∀ (q : Fin 512) (k : Fin 4096) (i : S4096x4096.Idx), (i 0).val = C * 512 + q.val → (i 1).val = k.val →
      x1 (ix2 q k) = W i * MK i)
    (hb : ∀ (q : Fin 512) (o : Fin 4096), o.val = C * 512 + q.val → x2 (ix2 (0 : Fin 1) q) = B (ix1 o))
    (p : Fin 1024) (q : Fin 512) (i : S16384x4096.Idx) (hi0 : (i 0).val = R * 1024 + p.val) (hi1 : (i 1).val = C * 512 + q.val) :
    k0_pay1 (F := Ideal) x0 x1 x2 (ix2 p q) = maskedLinear X W MK B i := by
  rw [body_at]
  show _ = entry X W MK B (i 0) (i 1)
  unfold entry
  have eb : x2 (ix2 (0 : Fin 1) q) = B (ix1 (n := 4096) (i 1)) := hb q (i 1) hi1
  have es : ∀ k : Fin 4096, x0 (ix2 p k) * x1 (ix2 q k)
      = X (ix2 (n0 := 16384) (n1 := 4096) (i 0) k) * (W (ix2 (n0 := 4096) (n1 := 4096) (i 1) k) * MK (ix2 (n0 := 4096) (n1 := 4096) (i 1) k)) := fun k => by
    rw [hx p k (ix2 (n0 := 16384) (n1 := 4096) (i 0) k) hi0 rfl, hw q k (ix2 (n0 := 4096) (n1 := 4096) (i 1) k) hi1 rfl]
  rw [eb, Finset.sum_congr rfl fun k _ => es k]

end Cert.KernelIdeal.Body

end
-- ==== Proof.LayerArray.lean ====
/-
  From blocks to the array: after the kernel's run the result array is the masked linear layer.

  The grid has 16 × 8 points. At point `(R, C)` the kernel reads rows `1024·R …` of the input, rows `512·C …`
  of the masked weight and entries `512·C …` of the bias, and writes the 1024 × 512 block at block row `R`,
  block column `C` of the result. The three arrays it reads were prepared before the launch: the input
  unchanged in value, the weight multiplied elementwise by the mask, the bias given a leading unit axis.
  Each written block is therefore the matching block of the layer, and the 128 blocks tile the result: the
  block holding entry `(t, o)` is the one at `(t / 1024, o / 512)`.
-/
import proofs.«142754_j59837484367883_2_alg».proof.Proof.Gen.KernelIdeal.Value
import proofs.«142754_j59837484367883_2_alg».proof.Proof.BlockOfLayer
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Layer

open Cert.KernelIdeal Cert.KernelIdeal.Gen Cert.KernelIdeal.Body Cert.MaskedLinear
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The layer of the four argument arrays as launched, on core `c`. -/
abbrev layer (c : Dev nD) : FVec Ideal S16384x4096 .f32 :=
  maskedLinear (m ((c : Thread nD τ).loc main_arg0)) (m ((c : Thread nD τ).loc main_arg1))
    (m ((c : Thread nD τ).loc main_arg3)) (m ((c : Thread nD τ).loc main_arg2))

theorem origin : (![0, 0] : Fin 2 → Nat) = fun _ => 0 := funext fun a => by fin_cases a <;> rfl

/-! ## The three arrays the launch reads, as prepared before it -/

/-- The input, narrowed in format only: the same extended reals. -/
theorem input_ready (c : Dev nD) (j : S16384x4096.Idx) :
    (V m c main_v2 : S16384x4096.Idx → EReal) j = (m ((c : Thread nD τ).loc main_arg0) : S16384x4096.Idx → EReal) j := by
  have e : (V m c main_v2 : S16384x4096.Idx → EReal) = (m ((c : Thread nD τ).loc main_arg0) : S16384x4096.Idx → EReal) := by
    dsimp only [Gen.V, Gen.hostOps0]; after_results; rfl
  rw [e]

/-- The weight times the mask, entry by entry (the elementwise product of two arrays, read at an index, is the
    product of their entries there). -/
theorem weight_ready (c : Dev nD) (j : S4096x4096.Idx) :
    (V m c main_v1 : S4096x4096.Idx → EReal) j
      = mulf (F := Ideal) (φ := .f32) (m ((c : Thread nD τ).loc main_arg1)) (m ((c : Thread nD τ).loc main_arg3)) j := by
  have e : (V m c main_v1 : S4096x4096.Idx → EReal)
      = mulf (F := Ideal) (φ := .f32) (m ((c : Thread nD τ).loc main_arg1)) (m ((c : Thread nD τ).loc main_arg3)) := by
    dsimp only [Gen.V, Gen.hostOps0]; after_results; rfl
  rw [e]

/-- The bias as one row: entry `(0, o)` is `bias[o]`. -/
theorem bias_ready (c : Dev nD) (o : Fin 4096) :
    (V m c main_v3 : S1x4096.Idx → EReal) (ix2 (0 : Fin 1) o) = (m ((c : Thread nD τ).loc main_arg2) : S4096.Idx → EReal) (ix1 o) := by
  have e : (V m c main_v3 : S1x4096.Idx → EReal)
      = shapeCast S1x4096 (m ((c : Thread nD τ).loc main_arg2) : S4096.Idx → EReal) shapeCasts_S4096_S1x4096 := by
    dsimp only [Gen.V, Gen.hostOps0]; after_results; rfl
  rw [e]
  exact shapeCast_a_1a_apply _ _ (0 : Fin 1) o

/-! ## Each window's block at a grid point, as rows of the arguments -/

/-- The first window's block at point `t`, at `(p, k)`, is the input at the array index that block index names. -/
theorem input_block (c : Dev nD) (t : Fin cfg0.N) (p : Fin 1024) (k : Fin 4096) (i : S16384x4096.Idx)
    (h0 : (i 0).val = win0_0.index t (0 : Fin 2) * 1024 + p.val) (h1 : (i 1).val = win0_0.index t (1 : Fin 2) * 4096 + k.val) :
    (iblk m c 0 t : Vec Ideal S1024x4096 .bf16) (ix2 p k) = (m ((c : Thread nD τ).loc main_arg0) : S16384x4096.Idx → EReal) i := by
  unfold iblk
  rw [View.read_apply]
  refine (input_ready m c _).trans (congrArg _ (funext fun a => Fin.ext ?_))
  match a with
  | ⟨0, _⟩ => show win0_0.index t (0 : Fin 2) * 1024 + 1 * p.val = (i 0).val; omega
  | ⟨1, _⟩ => show win0_0.index t (1 : Fin 2) * 4096 + 1 * k.val = (i 1).val; omega

/-- The second window's block at `(q, k)` is weight times mask at the array index that block index names. -/
theorem weight_block (c : Dev nD) (t : Fin cfg0.N) (q : Fin 512) (k : Fin 4096) (i : S4096x4096.Idx)
    (h0 : (i 0).val = win0_1.index t (0 : Fin 2) * 512 + q.val) (h1 : (i 1).val = win0_1.index t (1 : Fin 2) * 4096 + k.val) :
    (iblk m c 1 t : Vec Ideal S512x4096 .bf16) (ix2 q k)
      = mulf (F := Ideal) (φ := .f32) (m ((c : Thread nD τ).loc main_arg1)) (m ((c : Thread nD τ).loc main_arg3)) i := by
  unfold iblk
  rw [View.read_apply]
  have e : (((cfg0.win 1).blk t).view.emb (ix2 q k) : S4096x4096.Idx) = i := funext fun a => Fin.ext (by
    match a with
    | ⟨0, _⟩ => show win0_1.index t (0 : Fin 2) * 512 + 1 * q.val = (i 0).val; omega
    | ⟨1, _⟩ => show win0_1.index t (1 : Fin 2) * 4096 + 1 * k.val = (i 1).val; omega)
  refine (weight_ready m c _).trans ?_
  rw [e]

/-- The third window's block is one row; its entry `q` is the bias at the column that block index names. -/
theorem bias_block (c : Dev nD) (t : Fin cfg0.N) (q : Fin 512) (o : Fin 4096)
    (h0 : win0_2.index t (0 : Fin 2) = 0) (h1 : o.val = win0_2.index t (1 : Fin 2) * 512 + q.val) :
    (iblk m c 2 t : Vec Ideal S1x512 .f32) (ix2 (0 : Fin 1) q) = (m ((c : Thread nD τ).loc main_arg2) : S4096.Idx → EReal) (ix1 o) := by
  unfold iblk
  rw [View.read_apply]
  have e : (((cfg0.win 2).blk t).view.emb (ix2 (0 : Fin 1) q) : S1x4096.Idx) = ix2 (0 : Fin 1) o := funext fun a => Fin.ext (by
    match a with
    | ⟨0, _⟩ => show win0_2.index t (0 : Fin 2) * 1 + 1 * 0 = 0; omega
    | ⟨1, _⟩ => show win0_2.index t (1 : Fin 2) * 512 + 1 * q.val = o.val; omega)
  refine (congrArg (V m c main_v3 : S1x4096.Idx → EReal) e).trans ?_
  exact bias_ready m c o

/-! ## The index maps, decided over the 128 points -/

/-- The input's block row is the output's, the weight's and the bias's block index is the output's block column,
    and every other block index is zero; the output's block indices stay inside the 16 × 8 grid of blocks. -/
theorem index_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 15 ∧ win0_3.index t (1 : Fin 2) ≤ 7 :=
  (by decide +kernel : ∀ t : Fin grid0.N, _)

/-- Every block of the result is some point's. -/
theorem index_onto : ∀ (R : Fin 16) (C : Fin 8), ∃ t : Fin cfg0.N, win0_3.index t = ![R.val, C.val] :=
  (by decide +kernel : ∀ (R : Fin 16) (C : Fin 8), ∃ t : Fin grid0.N, win0_3.index t = ![R.val, C.val])

/-! ## What a point writes back, the cover, the array -/

/-- WHAT POINT `t` WRITES BACK is block `t` of the layer. -/
theorem flushed_eq (c : Dev nD) (t : Fin cfg0.N) :
    (dats m 0 c).flushed 3 t = ((cfg0.win 3).blk t).view.read (Elt Ideal) (layer m c) := by
  rw [Cert.KernelIdeal.Value.flushed3]
  unfold out0_3
  rw [View.canon_unit_zero origin]
  simp only [View.ld_unit_zero (S := S1024x4096) origin, View.ld_unit_zero (S := S512x4096) origin, View.ld_unit_zero (S := S1x512) origin]
  obtain ⟨e0, e1, e2, e3, e4, e5, b0, b1⟩ := index_facts t
  funext j
  show k0_pay1 (F := Ideal) (iblk m c 0 t) (iblk m c 1 t) (iblk m c 2 t) j = layer m c (((cfg0.win 3).blk t).view.emb j)
  have hj : (j : S1024x512.Idx) = ix2 (n0 := 1024) (n1 := 512) (j 0) (j 1) := eq_ix2 (n0 := 1024) (n1 := 512) j
  refine (congrArg (k0_pay1 (F := Ideal) (iblk m c 0 t) (iblk m c 1 t) (iblk m c 2 t)) hj).trans ?_
  exact body_eq_layer (m ((c : Thread nD τ).loc main_arg0)) (m ((c : Thread nD τ).loc main_arg1))
    (m ((c : Thread nD τ).loc main_arg3)) (m ((c : Thread nD τ).loc main_arg2))
    (iblk m c 0 t) (iblk m c 1 t) (iblk m c 2 t) (win0_3.index t (0 : Fin 2)) (win0_3.index t (1 : Fin 2))
    (fun p k i h0 h1 => input_block m c t p k i (by omega) (by omega))
    (fun q k i h0 h1 => weight_block m c t q k i (by omega) (by omega))
    (fun q o ho => bias_block m c t q o e4 (by omega))
    (j 0) (j 1) (((cfg0.win 3).blk t).view.emb j)
    (by show win0_3.index t (0 : Fin 2) * 1024 + 1 * (j 0).val = win0_3.index t (0 : Fin 2) * 1024 + (j 0).val; omega)
    (by show win0_3.index t (1 : Fin 2) * 512 + 1 * (j 1).val = win0_3.index t (1 : Fin 2) * 512 + (j 1).val; omega)

/-- An index of the result is in point `t`'s block iff each coordinate is in the block's range on its axis. -/
theorem mem_block (t : Fin cfg0.N) (i : S16384x4096.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v4).slice (win0_3.rect t)).set ↔ _
  rw [View.set_slice_whole, Rect.mem_set_unit]
  exact Iff.rfl

/-- The blocks tile the result: entry `(r, o)` lies in the block at block row `r / 1024`, block column `o / 512`. -/
theorem cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨t, ht⟩ := index_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- THE RESULT ARRAY after the run is the layer of the arguments. -/
theorem final (c : Dev nD) : (dats m 0 c).arrAt 3 cfg0.N = layer m c :=
  (dats m 0 c).arrAt_eq_of_cover 3 (layer m c) (fun t _ => flushed_eq m c t) cover

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v4) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Layer

end
-- ==== Proof.ReferenceValue.lean ====
/-
  The reference, read index by index, is the masked linear layer.

  The reference multiplies weight and mask elementwise, contracts the input's second axis against
  the product's second axis in one whole-array product, and adds the bias broadcast along the rows.
  Read at an output index `(t, o)` the product is the sum over `k` of `x[t, k]` times
  `w[o, k] · mask[o, k]`, and the twice-broadcast bias is `bias[o]`: exactly the specification's entry.
-/
import proofs.«142754_j59837484367883_2_alg».proof.Proof.Gen.ReferenceIdeal.Read
import proofs.«142754_j59837484367883_2_alg».proof.Proof.MaskedLinear

noncomputable section

namespace Cert.ReferenceIdeal.RefValue

open Cert.ReferenceIdeal Cert.ReferenceIdeal.Read Cert.MaskedLinear
open Idealize.ShloMosaic Idealize.ShloMosaic.ValueIdx

/-- The product's left operand is read at row `t` of the input and column `k`. -/
theorem left_index (i : S16384x4096.Idx) (k : Fin 4096) : lidx_main_v1 i k = ix2 (n0 := 16384) (n1 := 4096) (i 0) k :=
  funext fun a => Fin.ext (by match a with | ⟨0, _⟩ => rfl | ⟨1, _⟩ => rfl)

/-- Its right operand is read at row `o` of the masked weight and column `k`. -/
theorem right_index (i : S16384x4096.Idx) (k : Fin 4096) : ridx_main_v1 i k = ix2 (n0 := 4096) (n1 := 4096) (i 1) k :=
  funext fun a => Fin.ext (by match a with | ⟨0, _⟩ => rfl | ⟨1, _⟩ => rfl)

/-- The bias, broadcast to a row and then down the rows, is read at the output's column. -/
theorem bias_index (i : S16384x4096.Idx) : idx_main_v2 (idx_main_v3 i) = ix1 (n := 4096) (i 1) :=
  funext fun a => Fin.ext (by match a with | ⟨0, _⟩ => rfl)

/-- The reference's result is the masked linear layer of its four arguments. -/
theorem reference_eq (x : FVec Ideal S16384x4096 .f32) (w : FVec Ideal S4096x4096 .f32) (b : FVec Ideal S4096 .f32)
    (mk : FVec Ideal S4096x4096 .f32) :
    val_main_v4 (F := Ideal) x w b mk = maskedLinear x w mk b := by
  funext i
  rw [val_main_v4_apply, val_main_v1_apply, val_main_v3_apply, val_main_v2_apply, bias_index]
  show (∑ k : Fin 4096, x (lidx_main_v1 i k) * val_main_v0 (F := Ideal) w mk (ridx_main_v1 i k)) + b (ix1 (n := 4096) (i 1))
    = entry x w mk b (i 0) (i 1)
  unfold entry
  refine congrArg (· + b (ix1 (n := 4096) (i 1))) (Finset.sum_congr rfl fun k _ => ?_)
  rw [left_index, right_index]
  rfl

end Cert.ReferenceIdeal.RefValue

end
-- ==== Proof.lean ====
/-
  A linear layer with a masked weight, tiled, against the same layer computed whole.

  Both programs compute, for an input `x` (16384 × 4096), a weight `w` and a mask (4096 × 4096 each) and a
  bias (4096),

      y[t, o] = Σ_k x[t, k] · (w[o, k] · mask[o, k]) + bias[o].

  The reference multiplies weight and mask, takes one product over the whole arrays contracting the shared
  second axis, and adds the bias along the rows. The kernel does the same multiplication once beforehand,
  narrows the two operands' format (which changes nothing on the extended reals), and then fills the result
  block by block on a 16 × 8 grid: each point contracts 1024 rows of the input against 512 rows of the masked
  weight into a zero accumulator and adds the 512 matching bias entries.

  On the extended reals the two agree entry by entry with no algebra at all: the sum over `k` has the same
  terms in the same order on both sides, and a sum started from zero is the sum. So no finiteness of the
  inputs is used. The work is bookkeeping: that the block written at a point is the matching block of the
  layer (Proof/BlockProduct.lean, Proof/BlockOfLayer.lean), that the 128 blocks tile the result
  (Proof/LayerArray.lean), and that the reference read at an index is the same entry (Proof/ReferenceValue.lean),
  all against one statement of the layer (Proof/MaskedLinear.lean). The idealization rewrote nothing, so the
  kernel's idealized text is its own text and that conjunct is trivial; the three programs' runs terminating
  with their arguments unchanged come from the generated modules.
-/
import proofs.«142754_j59837484367883_2_alg».proof.Defs
import proofs.«142754_j59837484367883_2_alg».proof.Proof.Gen.Kernel
import proofs.«142754_j59837484367883_2_alg».proof.Proof.Gen.Kernel.Skeleton
import proofs.«142754_j59837484367883_2_alg».proof.Proof.Gen.Kernel.Launch
import proofs.«142754_j59837484367883_2_alg».proof.Proof.Gen.Kernel.Points
import proofs.«142754_j59837484367883_2_alg».proof.Proof.Gen.Kernel.Frame
import proofs.«142754_j59837484367883_2_alg».proof.Proof.Gen.KernelIdeal
import proofs.«142754_j59837484367883_2_alg».proof.Proof.Gen.KernelIdeal.Skeleton
import proofs.«142754_j59837484367883_2_alg».proof.Proof.Gen.KernelIdeal.Launch
import proofs.«142754_j59837484367883_2_alg».proof.Proof.Gen.KernelIdeal.Points
import proofs.«142754_j59837484367883_2_alg».proof.Proof.Gen.KernelIdeal.Frame
import proofs.«142754_j59837484367883_2_alg».proof.Proof.Gen.ReferenceIdeal
import proofs.«142754_j59837484367883_2_alg».proof.Proof.Gen.Pre_finite_inputs
import proofs.«142754_j59837484367883_2_alg».proof.Proof.Gen.KernelIdeal.Value
import proofs.«142754_j59837484367883_2_alg».proof.Proof.Gen.ReferenceIdeal.Run
import proofs.«142754_j59837484367883_2_alg».proof.Proof.Gen.ReferenceIdeal.Read
import Idealize.ShloMosaic.Adequacy
import Idealize.ShloMosaic.Init
import proofs.«142754_j59837484367883_2_alg».proof.Proof.LayerArray
import proofs.«142754_j59837484367883_2_alg».proof.Proof.ReferenceValue

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does its idealized text. -/
theorem frame_kernel_ideal : Cert.frame_KernelIdeal := fun m ρ _ => Cert.KernelIdeal.Gen.frame m ρ

/-- So does the reference: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- From memories that agree on the four arguments, the kernel's result array ends at the masked linear layer of
    its arguments and the reference's at the masked linear layer of its own: the same array. -/
theorem algebraic : Cert.algebraic_KernelIdeal_ReferenceIdeal := by
  intro m ρ m' ρ' _ hagree
  refine ⟨fun c => Cert.KernelIdeal.Layer.layer m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
